-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16777216 : Shape := ⟨2, ![1, 16777216]⟩
abbrev S_ : Shape := ⟨0, ![]⟩

class Facts : Prop where
  bcast_S_S1x16777216 : S_.BroadcastsInDim S1x16777216 (![] : Fin 0 → Fin S1x16777216.rank)
  reducesTo_S1x16777216_S_d0_1 : S1x16777216.ReducesTo [0, 1] S_
  h_S_ : 0 < S_.numel

variable [Facts]

def fn {F : FTy → Type} [FloatOps F] (main_arg0 : FVec F S1x16777216 .f32) (main_arg1 : FVec F S1x16777216 .f32) (main_arg2 : FVec F S1x16777216 .f32) : IVec S_ 1 :=
  let main_v0 : FVec F S1x16777216 .f32 := Host.absf main_arg0
  let main_cst : FVec F S_ .f32 := constant S_ .f32 0x7F800000#32
  let main_v1 : FVec F S1x16777216 .f32 := broadcastInDim S1x16777216 ![] bcast_S_S1x16777216 main_cst
  let main_v2 : IVec S1x16777216 1 := cmpf .olt main_v0 main_v1
  let main_c : IVec S_ 1 := constantI S_ 1 1#1
  let main_v3 : IVec S_ 1 := (fun x v => Host.reduce IntOp.andi x v reducesTo_S1x16777216_S_d0_1 h_S_) main_v2 main_c
  let main_v4 : FVec F S1x16777216 .f32 := Host.absf main_arg1
  let main_cst_0 : FVec F S_ .f32 := constant S_ .f32 0x7F800000#32
  let main_v5 : FVec F S1x16777216 .f32 := broadcastInDim S1x16777216 ![] bcast_S_S1x16777216 main_cst_0
  let main_v6 : IVec S1x16777216 1 := cmpf .olt main_v4 main_v5
  let main_c_1 : IVec S_ 1 := constantI S_ 1 1#1
  let main_v7 : IVec S_ 1 := (fun x v => Host.reduce IntOp.andi x v reducesTo_S1x16777216_S_d0_1 h_S_) main_v6 main_c_1
  let main_v8 : IVec S_ 1 := andi main_v3 main_v7
  let main_v9 : FVec F S1x16777216 .f32 := Host.absf main_arg2
  let main_cst_2 : FVec F S_ .f32 := constant S_ .f32 0x7F800000#32
  let main_v10 : FVec F S1x16777216 .f32 := broadcastInDim S1x16777216 ![] bcast_S_S1x16777216 main_cst_2
  let main_v11 : IVec S1x16777216 1 := cmpf .olt main_v9 main_v10
  let main_c_3 : IVec S_ 1 := constantI S_ 1 1#1
  let main_v12 : IVec S_ 1 := (fun x v => Host.reduce IntOp.andi x v reducesTo_S1x16777216_S_d0_1 h_S_) main_v11 main_c_3
  let main_v13 : IVec S_ 1 := andi main_v8 main_v12
  main_v13
-- ==== Kernel.lean ====
abbrev S1x16777216 : Shape := ⟨2, ![1, 16777216]⟩
abbrev S1x524288 : Shape := ⟨2, ![1, 524288]⟩

abbrev nBuf : Space → Nat
  | .hbm => 6
  | .vmem => 12
  | .smem => 0
  | _ => 0

abbrev bufTy : (tb : Table) → Fin (tcTables nBuf tb) → BufTy
  | .hbm, ⟨0, _⟩ => ⟨S1x16777216, .f32⟩
  | .hbm, ⟨1, _⟩ => ⟨S1x16777216, .f32⟩
  | .hbm, ⟨2, _⟩ => ⟨S1x16777216, .f32⟩
  | .hbm, ⟨3, _⟩ => ⟨S1x16777216, .f32⟩
  | .hbm, ⟨4, _⟩ => ⟨S1x16777216, .f32⟩
  | .hbm, ⟨5, _⟩ => ⟨S1x16777216, .f32⟩
  | .local _ .vmem, ⟨0, _⟩ => ⟨S1x524288, .f32⟩
  | .local _ .vmem, ⟨1, _⟩ => ⟨S1x524288, .f32⟩
  | .local _ .vmem, ⟨2, _⟩ => ⟨S1x524288, .f32⟩
  | .local _ .vmem, ⟨3, _⟩ => ⟨S1x524288, .f32⟩
  | .local _ .vmem, ⟨4, _⟩ => ⟨S1x524288, .f32⟩
  | .local _ .vmem, ⟨5, _⟩ => ⟨S1x524288, .f32⟩
  | .local _ .vmem, ⟨6, _⟩ => ⟨S1x524288, .f32⟩
  | .local _ .vmem, ⟨7, _⟩ => ⟨S1x524288, .f32⟩
  | .local _ .vmem, ⟨8, _⟩ => ⟨S1x524288, .f32⟩
  | .local _ .vmem, ⟨9, _⟩ => ⟨S1x524288, .f32⟩
  | .local _ .vmem, ⟨10, _⟩ => ⟨S1x524288, .f32⟩
  | .local _ .vmem, ⟨11, _⟩ => ⟨S1x524288, .f32⟩
  | _, _ => ⟨S1x16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x524288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x524288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x524288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x524288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x524288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x524288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x524288_S1x524288_0_0 : ∀ a, (![0, 0] : Fin 2 → Nat) a + S1x524288.size a ≤ S1x524288.size a
  h_S1x524288 : 0 < S1x524288.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x524288.size a ≤ S1x16777216.size a
  hwx0_0 : ∀ i : grid0.Coords, EltTy.bits .f32 = 32 ∨ (Rect.block (s := S1x16777216) S1x524288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x524288.size a ≤ S1x16777216.size a
  hwx0_1 : ∀ i : grid0.Coords, EltTy.bits .f32 = 32 ∨ (Rect.block (s := S1x16777216) S1x524288.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x524288.size a ≤ S1x16777216.size a
  hwx0_2 : ∀ i : grid0.Coords, EltTy.bits .f32 = 32 ∨ (Rect.block (s := S1x16777216) S1x524288.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x524288.size a ≤ S1x16777216.size a
  hwx0_3 : ∀ i : grid0.Coords, EltTy.bits .f32 = 32 ∨ (Rect.block (s := S1x16777216) S1x524288.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x524288.size a ≤ S1x16777216.size a
  hwx0_4 : ∀ i : grid0.Coords, EltTy.bits .f32 = 32 ∨ (Rect.block (s := S1x16777216) S1x524288.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x524288.size a ≤ S1x16777216.size a
  hwx0_5 : ∀ i : grid0.Coords, EltTy.bits .f32 = 32 ∨ (Rect.block (s := S1x16777216) S1x524288.size (cc0_transform_5 i) (hinb0_5 i)).WholeWords (EltTy.packing .f32)

variable [Facts₀]

abbrev win0_0 : Pipeline.Window sig grid0 :=
  Pipeline.Window.ofSpec (Memref.whole main_arg0) S1x524288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x524288.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x524288.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x524288.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x524288.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x524288.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x16777216 : Shape := ⟨2, ![1, 16777216]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S1x16777216, .f32⟩
  | .hbm, ⟨1, _⟩ => ⟨S1x16777216, .f32⟩
  | .hbm, ⟨2, _⟩ => ⟨S1x16777216, .f32⟩
  | .hbm, ⟨3, _⟩ => ⟨S_, .f32⟩
  | .hbm, ⟨4, _⟩ => ⟨S1x16777216, .f32⟩
  | .hbm, ⟨5, _⟩ => ⟨S1x16777216, .f32⟩
  | .hbm, ⟨6, _⟩ => ⟨S_, .f32⟩
  | .hbm, ⟨7, _⟩ => ⟨S1x16777216, .f32⟩
  | .hbm, ⟨8, _⟩ => ⟨S1x16777216, .i1⟩
  | .hbm, ⟨9, _⟩ => ⟨S_, .f32⟩
  | .hbm, ⟨10, _⟩ => ⟨S1x16777216, .f32⟩
  | .hbm, ⟨11, _⟩ => ⟨S1x16777216, .i1⟩
  | .hbm, ⟨12, _⟩ => ⟨S1x16777216, .i1⟩
  | .hbm, ⟨13, _⟩ => ⟨S1x16777216, .i1⟩
  | .hbm, ⟨14, _⟩ => ⟨S1x16777216, .i1⟩
  | .hbm, ⟨15, _⟩ => ⟨S1x16777216, .f32⟩
  | .hbm, ⟨16, _⟩ => ⟨S_, .f32⟩
  | .hbm, ⟨17, _⟩ => ⟨S_, .f32⟩
  | .hbm, ⟨18, _⟩ => ⟨S1x16777216, .f32⟩
  | .hbm, ⟨19, _⟩ => ⟨S1x16777216, .f32⟩
  | .hbm, ⟨20, _⟩ => ⟨S1x16777216, .f32⟩
  | .hbm, ⟨21, _⟩ => ⟨S1x16777216, .f32⟩
  | .hbm, ⟨22, _⟩ => ⟨S_, .f32⟩
  | .hbm, ⟨23, _⟩ => ⟨S_, .f32⟩
  | .hbm, ⟨24, _⟩ => ⟨S1x16777216, .f32⟩
  | .hbm, ⟨25, _⟩ => ⟨S1x16777216, .f32⟩
  | .hbm, ⟨26, _⟩ => ⟨S1x16777216, .f32⟩
  | .hbm, ⟨27, _⟩ => ⟨S1x16777216, .f32⟩
  | .hbm, ⟨28, _⟩ => ⟨S_, .f32⟩
  | .hbm, ⟨29, _⟩ => ⟨S_, .f32⟩
  | .hbm, ⟨30, _⟩ => ⟨S1x16777216, .f32⟩
  | .hbm, ⟨31, _⟩ => ⟨S1x16777216, .f32⟩
  | _, _ => ⟨S1x16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_call2_v0 : Ref sig .tc := ⟨.hbm, 23, rfl⟩
abbrev main_call2_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_call4_v0 : Ref sig .tc := ⟨.hbm, 29, rfl⟩
abbrev main_call4_v1 : Ref sig .tc := ⟨.hbm, 30, rfl⟩
abbrev main_v16 : Ref sig .tc := ⟨.hbm, 31, rfl⟩

abbrev nD : Nat := 1
abbrev τ : Topo := Topo.v7x

variable {F : FTy → Type} [FloatOps F]

class Facts₀ : Prop where
  bcast_S_S1x16777216 : S_.BroadcastsInDim S1x16777216 (![] : Fin 0 → Fin S1x16777216.rank)

variable [Facts₀]

class Facts : Prop extends Facts₀ where

variable [Facts]
-- ==== Proof.Bounds.lean ====
/-
  Interval bounds through a rectifier, element by element over f32[1, 16777216].

  From a pre-activation `x` and bounds `l`, `u` (three arrays of one shape) the layer returns three arrays of that shape:

    x_out     = max(x, 0)
    lower_out = 0 where u ≤ 0;  else u where l ≥ 0;  else l
    upper_out = 0 where u ≤ 0;  else u where l ≥ 0;  else (u / d) · u,
                with d = u − l where neither test holds and d = 1 elsewhere.

  Every entry of every result depends on the same entry of the arguments and on no other, so each result array is one
  function of the argument arrays applied index by index. The kernel cuts the long axis into 32 blocks of 524288 columns and
  computes these expressions on each block; the generated value leg already states its three result arrays as the whole-array
  functions `G3`, `G4`, `G5`. The reference computes the same expressions on the whole arrays at once.

  The two programs apply the same operations to the same operands in the same order, with the same two constant words
  (0.0 and 1.0). They differ only in spelling, in three places:
    • the reference fills an array with a scalar constant by a broadcast; read at an index that is the constant;
    • the "neither test holds" mask negates a one-bit truth value: the kernel by an exclusive or with 1, the reference by
      the complement — on one bit these are the same function (`not_eq_xor_one`);
    • the quotient is the vector unit's in the kernel and the host's in the reference — on the extended reals both are
      the one quotient `Ideal.div`.
  No algebraic law is used: the two sides are the same term, so nothing here needs the inputs to be finite.
-/
import proofs.«169833_j59914793779496_2_alg».proof.Defs
import proofs.«169833_j59914793779496_2_alg».proof.Proof.Gen.Kernel.Frame
import proofs.«169833_j59914793779496_2_alg».proof.Proof.Gen.KernelIdeal.Value
import proofs.«169833_j59914793779496_2_alg».proof.Proof.Gen.ReferenceIdeal.Run
import proofs.«169833_j59914793779496_2_alg».proof.Proof.Gen.ReferenceIdeal.Read
import proofs.«169833_j59914793779496_2_alg».proof.Proof.Gen.Pre_finite_inputs

noncomputable section

open Idealize.ShloMosaic Idealize.ShloMosaic.TcCoe Idealize.SL.Sem

/-! ## The reference's three results are the kernel's three functions -/

namespace Cert.ReluBounds

open Cert.ReferenceIdeal Cert.ReferenceIdeal.Gen Cert.ReferenceIdeal.Read

/-- On a single bit, the complement is the exclusive or with 1. -/
theorem not_eq_xor_one (b : BitVec 1) : ~~~b = IntOp.xori b 1#1 := by
  revert b; decide

/-- `x_out`: the reference's `max(x, 0)` against a broadcast zero is, index by index, the kernel's `max(x i, 0)`. -/
theorem xout_eq (x : FVec Ideal S1x16777216 .f32) :
    maximumf x (broadcastInDim S1x16777216 ![] bcast_S_S1x16777216 (constant (F := Ideal) S_ .f32 0x00000000#32))
      = Cert.KernelIdeal.Value.G3 (F := Ideal) x := by
  rw [val_main_v1_eq]
  funext i
  simp only [val_main_v1_apply, val_main_v0_apply, val_main_cst_apply]

/-- `lower_out`: `0` where `u ≤ 0`, else `u` where `l ≥ 0`, else `l` — the reference's two nested selections over broadcast
    constants are the kernel's two selections at every index. -/
theorem lower_eq (l u : FVec Ideal S1x16777216 .f32) :
    select (cmpf .ole u (broadcastInDim S1x16777216 ![] bcast_S_S1x16777216 (constant (F := Ideal) S_ .f32 0x00000000#32)))
        (broadcastInDim S1x16777216 ![] bcast_S_S1x16777216 (id (constant (F := Ideal) S_ .f32 0x00000000#32)))
        (select (cmpf .oge l (broadcastInDim S1x16777216 ![] bcast_S_S1x16777216 (constant (F := Ideal) S_ .f32 0x00000000#32))) u l)
      = Cert.KernelIdeal.Value.G4 (F := Ideal) l u := by
  rw [val_main_v13_eq]
  funext i
  simp only [val_main_v13_apply, val_main_v12_apply, val_main_call2_v1_apply, val_main_call2_v0_apply, val_main_cst_3_apply,
    val_main_v5_apply, val_main_v4_apply, val_main_cst_1_apply, val_main_v3_apply, val_main_v2_apply, val_main_cst_0_apply]

/-- `upper_out`: `0` where `u ≤ 0`, else `u` where `l ≥ 0`, else `(u / d) · u` with the guarded denominator `d`. The mask
    "neither test holds" is the conjunction of the two negated tests (complement = exclusive or with 1 on one bit), and the
    host's quotient is the vector unit's on the extended reals. -/
theorem upper_eq (l u : FVec Ideal S1x16777216 .f32) :
    select (cmpf .ole u (broadcastInDim S1x16777216 ![] bcast_S_S1x16777216 (constant (F := Ideal) S_ .f32 0x00000000#32)))
        (broadcastInDim S1x16777216 ![] bcast_S_S1x16777216 (id (constant (F := Ideal) S_ .f32 0x00000000#32)))
        (select (cmpf .oge l (broadcastInDim S1x16777216 ![] bcast_S_S1x16777216 (constant (F := Ideal) S_ .f32 0x00000000#32))) u
          (mulf (Host.divf u
            (select (andi (noti (cmpf .ole u (broadcastInDim S1x16777216 ![] bcast_S_S1x16777216 (constant (F := Ideal) S_ .f32 0x00000000#32))))
                          (noti (cmpf .oge l (broadcastInDim S1x16777216 ![] bcast_S_S1x16777216 (constant (F := Ideal) S_ .f32 0x00000000#32)))))
              (subf u l)
              (broadcastInDim S1x16777216 ![] bcast_S_S1x16777216 (id (constant (F := Ideal) S_ .f32 0x3F800000#32))))) u))
      = Cert.KernelIdeal.Value.G5 (F := Ideal) l u := by
  rw [val_main_v16_eq]
  funext i
  simp only [val_main_v16_apply, val_main_call4_v1_apply, val_main_call4_v0_apply, val_main_cst_4_apply, val_main_v15_apply,
    val_main_v14_apply, val_main_v11_apply, val_main_v10_apply, val_main_call0_v1_apply, val_main_call0_v0_apply,
    val_main_cst_2_apply, val_main_v9_apply, val_main_v8_apply, val_main_v7_apply, val_main_v6_apply, val_main_v5_apply,
    val_main_v4_apply, val_main_cst_1_apply, val_main_v3_apply, val_main_v2_apply, val_main_cst_0_apply,
    Cert.KernelIdeal.Value.G5, not_eq_xor_one, Ideal.hostDivf_def, Ideal.divf_def]

end Cert.ReluBounds

/-! ## The claims -/

namespace Cert.Proof.ReluBoundsClaims

/-- The word-level kernel runs to the end without a fault and leaves its arguments as they were (the generated frame). -/
theorem frame_kernel : Cert.frame_Kernel := fun m ρ _ => Cert.Kernel.Gen.frame m ρ

/-- The same for the kernel read on the extended reals. -/
theorem frame_kernel_ideal : Cert.frame_KernelIdeal := fun m ρ _ => Cert.KernelIdeal.Gen.frame m ρ

/-- The reference runs to the end and leaves its arguments as they were: its generated run, the three results dropped. -/
theorem frame_reference_ideal : Cert.frame_ReferenceIdeal := fun m ρ _ =>
  (θ_run Cert.ReferenceIdeal.defs _ _).mono (fun _ h c => (h c).2.2.2) (Cert.ReferenceIdeal.Value.run (F := Ideal) m ρ)

/-- On the extended reals the kernel's three result arrays are `G3 x`, `G4 l u`, `G5 l u` (the generated value leg) and the
    reference's are the three terms of its generated run, of arguments that agree: the same three functions. -/
theorem algebraic : Cert.algebraic_KernelIdeal_ReferenceIdeal := by
  intro m ρ m' ρ' _ hagree
  refine ⟨_, _, _, Cert.KernelIdeal.Value.run (F := Ideal) m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [(hagree c).1]
    exact Cert.ReluBounds.xout_eq _
  · rw [(hagree c).2.1, (hagree c).2.2]
    exact Cert.ReluBounds.lower_eq _ _
  · rw [(hagree c).2.1, (hagree c).2.2]
    exact Cert.ReluBounds.upper_eq _ _

end Cert.Proof.ReluBoundsClaims

end
-- ==== Proof.lean ====
/-
  Interval bounds through a rectifier over f32[1, 16777216]: `x_out = max(x, 0)`; `lower_out` and `upper_out` are `0` where
  `u ≤ 0`, else `u` where `l ≥ 0`, else `l` and `(u / d) · u` (the denominator `d = u − l` guarded to `1` off that case).
  The kernel computes the three results on 32 blocks of 524288 columns, the reference on the whole arrays; entry by entry
  both apply the same operations to the same operands, so on the extended reals the results are equal with no algebraic
  law and no use of the inputs' finiteness (Proof/Bounds.lean). The three programs run to the end with their arguments
  unchanged, and the idealized kernel is the kernel's own text read on the extended reals (no operation was rewritten).
-/
import proofs.«169833_j59914793779496_2_alg».proof.Defs
import proofs.«169833_j59914793779496_2_alg».proof.Proof.Gen.Kernel
import proofs.«169833_j59914793779496_2_alg».proof.Proof.Gen.KernelIdeal
import proofs.«169833_j59914793779496_2_alg».proof.Proof.Gen.ReferenceIdeal
import proofs.«169833_j59914793779496_2_alg».proof.Proof.Gen.Pre_finite_inputs
import proofs.«169833_j59914793779496_2_alg».proof.Proof.Bounds

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.ReluBoundsClaims.frame_kernel,
    Cert.Proof.ReluBoundsClaims.frame_kernel_ideal,
    Cert.Proof.ReluBoundsClaims.frame_reference_ideal,
    trivial,
    Cert.Proof.ReluBoundsClaims.algebraic⟩

end Cert.Proof

end
